-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x128 : Shape := ⟨2, ![131072, 128]⟩
abbrev S256x128 : Shape := ⟨2, ![256, 128]⟩
abbrev S128x128 : Shape := ⟨2, ![128, 128]⟩
abbrev S128x256 : Shape := ⟨2, ![128, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S128x128 .f32) (main_arg8 : FVec F S128x256 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  main_v43

def fn_part1 {F : FTy → Type} [FloatOps F] (main_arg4 : FVec F S256x128 .f32) (main_arg5 : FVec F S128x128 .f32) (main_arg6 : FVec F S256x128 .f32) (main_arg7 : FVec F S128x128 .f32) (main_arg8 : FVec F S128x256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_v33

def fn {F : FTy → Type} [FloatOps F] (main_arg0 : FVec F S131072x256 .f32) (main_arg1 : FVec F S131072x128 .f32) (main_arg2 : FVec F S256x128 .f32) (main_arg3 : FVec F S128x128 .f32) (main_arg4 : FVec F S256x128 .f32) (main_arg5 : FVec F S128x128 .f32) (main_arg6 : FVec F S256x128 .f32) (main_arg7 : FVec F S128x128 .f32) (main_arg8 : FVec F S128x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S131072x256 : Shape := ⟨2, ![131072, 256]⟩
abbrev S131072x128 : Shape := ⟨2, ![131072, 128]⟩
abbrev S256x128 : Shape := ⟨2, ![256, 128]⟩
abbrev S128x128 : Shape := ⟨2, ![128, 128]⟩
abbrev S128x256 : Shape := ⟨2, ![128, 256]⟩
abbrev S256x384 : Shape := ⟨2, ![256, 384]⟩
abbrev S128x384 : Shape := ⟨2, ![128, 384]⟩
abbrev S4096x256 : Shape := ⟨2, ![4096, 256]⟩
abbrev S4096x128 : Shape := ⟨2, ![4096, 128]⟩
abbrev S4096x384 : Shape := ⟨2, ![4096, 384]⟩

abbrev nBuf : Space → Nat
  | .hbm => 16
  | .vmem => 11
  | .smem => 0
  | _ => 0

abbrev bufTy : (tb : Table) → Fin (tcTables nBuf tb) → BufTy
  | .hbm, ⟨0, _⟩ => ⟨S131072x256, .f32⟩
  | .hbm, ⟨1, _⟩ => ⟨S131072x128, .f32⟩
  | .hbm, ⟨2, _⟩ => ⟨S256x128, .f32⟩
  | .hbm, ⟨3, _⟩ => ⟨S128x128, .f32⟩
  | .hbm, ⟨4, _⟩ => ⟨S256x128, .f32⟩
  | .hbm, ⟨5, _⟩ => ⟨S128x128, .f32⟩
  | .hbm, ⟨6, _⟩ => ⟨S256x128, .f32⟩
  | .hbm, ⟨7, _⟩ => ⟨S128x128, .f32⟩
  | .hbm, ⟨8, _⟩ => ⟨S128x256, .f32⟩
  | .hbm, ⟨9, _⟩ => ⟨S256x384, .f32⟩
  | .hbm, ⟨10, _⟩ => ⟨S256x384, .bf16⟩
  | .hbm, ⟨11, _⟩ => ⟨S128x384, .f32⟩
  | .hbm, ⟨12, _⟩ => ⟨S128x384, .bf16⟩
  | .hbm, ⟨13, _⟩ => ⟨S128x256, .bf16⟩
  | .hbm, ⟨14, _⟩ => ⟨S131072x256, .f32⟩
  | .hbm, ⟨15, _⟩ => ⟨S131072x128, .f32⟩
  | .local _ .vmem, ⟨0, _⟩ => ⟨S4096x256, .f32⟩
  | .local _ .vmem, ⟨1, _⟩ => ⟨S4096x256, .f32⟩
  | .local _ .vmem, ⟨2, _⟩ => ⟨S4096x128, .f32⟩
  | .local _ .vmem, ⟨3, _⟩ => ⟨S4096x128, .f32⟩
  | .local _ .vmem, ⟨4, _⟩ => ⟨S256x384, .bf16⟩
  | .local _ .vmem, ⟨5, _⟩ => ⟨S128x384, .bf16⟩
  | .local _ .vmem, ⟨6, _⟩ => ⟨S128x256, .bf16⟩
  | .local _ .vmem, ⟨7, _⟩ => ⟨S4096x256, .f32⟩
  | .local _ .vmem, ⟨8, _⟩ => ⟨S4096x256, .f32⟩
  | .local _ .vmem, ⟨9, _⟩ => ⟨S4096x128, .f32⟩
  | .local _ .vmem, ⟨10, _⟩ => ⟨S4096x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S256x128_S256x128_S256x128_S256x384_d1 : Shape.Concatenates [S256x128, S256x128, S256x128] S256x384 1
  bitsLt_bf16_f32 : FTy.bits .bf16 < FTy.bits .f32
  concatenates_S128x128_S128x128_S128x128_S128x384_d1 : Shape.Concatenates [S128x128, S128x128, S128x128] S128x384 1
  inb_S4096x256_S4096x256_0_0 : ∀ a, (![0, 0] : Fin 2 → Nat) a + S4096x256.size a ≤ S4096x256.size a
  h_S4096x256 : 0 < S4096x256.numel
  inb_S4096x128_S4096x128_0_0 : ∀ a, (![0, 0] : Fin 2 → Nat) a + S4096x128.size a ≤ S4096x128.size a
  h_S4096x128 : 0 < S4096x128.numel
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  dot_S4096x256_S256x384_S4096x384_1_0_0_1_n_n_wf : DotDims.WF S4096x256 S256x384 S4096x384 [1] [0] [0] [1] [] []
  dot_S4096x128_S128x384_S4096x384_1_0_0_1_n_n_wf : DotDims.WF S4096x128 S128x384 S4096x384 [1] [0] [0] [1] [] []
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x384.size a ≤ S256x384.size a
  hwx0_2 : ∀ i : grid0.Coords, EltTy.bits .bf16 = 32 ∨ (Rect.block (s := S256x384) S256x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S131072x256.size a
  hwx0_5 : ∀ i : grid0.Coords, EltTy.bits .f32 = 32 ∨ (Rect.block (s := S131072x256) S4096x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)

variable [Facts₀]

def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S4096x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x128 : Shape := ⟨2, ![131072, 128]⟩
abbrev S256x128 : Shape := ⟨2, ![256, 128]⟩
abbrev S128x128 : Shape := ⟨2, ![128, 128]⟩
abbrev S128x256 : Shape := ⟨2, ![128, 256]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x128, .f32⟩
  | .hbm, ⟨2, _⟩ => ⟨S256x128, .f32⟩
  | .hbm, ⟨3, _⟩ => ⟨S128x128, .f32⟩
  | .hbm, ⟨4, _⟩ => ⟨S256x128, .f32⟩
  | .hbm, ⟨5, _⟩ => ⟨S128x128, .f32⟩
  | .hbm, ⟨6, _⟩ => ⟨S256x128, .f32⟩
  | .hbm, ⟨7, _⟩ => ⟨S128x128, .f32⟩
  | .hbm, ⟨8, _⟩ => ⟨S128x256, .f32⟩
  | .hbm, ⟨9, _⟩ => ⟨S131072x128, .f32⟩
  | .hbm, ⟨10, _⟩ => ⟨S131072x128, .f32⟩
  | .hbm, ⟨11, _⟩ => ⟨S131072x128, .f32⟩
  | .hbm, ⟨12, _⟩ => ⟨S131072x128, .f32⟩
  | .hbm, ⟨13, _⟩ => ⟨S131072x128, .f32⟩
  | .hbm, ⟨14, _⟩ => ⟨S_, .f32⟩
  | .hbm, ⟨15, _⟩ => ⟨S131072x128, .f32⟩
  | .hbm, ⟨16, _⟩ => ⟨S131072x128, .f32⟩
  | .hbm, ⟨17, _⟩ => ⟨S_, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S_, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S_, .f32⟩
  | .hbm, ⟨38, _⟩ => ⟨S131072x128, .f32⟩
  | .hbm, ⟨39, _⟩ => ⟨S131072x128, .f32⟩
  | .hbm, ⟨40, _⟩ => ⟨S_, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S_, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S131072x128 : S_.BroadcastsInDim S131072x128 (![] : Fin 0 → Fin S131072x128.rank)
  dot_S131072x256_S256x128_S131072x128_1_0_0_1_n_n_wf : DotDims.WF S131072x256 S256x128 S131072x128 [1] [0] [0] [1] [] []
  dot_S131072x128_S128x128_S131072x128_1_0_0_1_n_n_wf : DotDims.WF S131072x128 S128x128 S131072x128 [1] [0] [0] [1] [] []
  dot_S131072x128_S128x256_S131072x256_1_0_0_1_n_n_wf : DotDims.WF S131072x128 S128x256 S131072x256 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf

class Facts : Prop extends Facts₀ where

variable [Facts]
-- ==== Proof.FrameK.lean ====
/-
  The kernel program, as printed at the level of machine words, runs to the end, faults nowhere, and leaves its nine argument arrays as they were;
  and after the run each of its two result arrays is assembled from what the cell's body stored at each of the 32
  grid steps.

  The program first builds, on the host, the two wide weight matrices (the three input-side matrices side by side,
  the three hidden-side ones side by side, each rounded to the narrow float format) and the rounded output matrix;
  then one pipelined call walks the batch in 32 blocks of 4096 rows.  At a step the body reads its five input
  blocks (a row block of `x`, the same rows of `h`, and the three whole weight matrices), and overwrites the whole
  of its two output blocks: the rows of the next state, and those rows times the output matrix.  It also reads the
  two output blocks before overwriting them and uses nothing of what it read, so whatever they held is irrelevant.

  What is shown: the host lines write only their own five results, so every argument array is found as launched;
  the body, run on buffers holding the input blocks and anything at all in the output blocks, ends with the inputs
  untouched and each output block equal to the body's stored value (a function of the input blocks only); the
  pipeline around it therefore ends with every array it manages at the contents computed from those per-step
  values, and every other buffer as the call found it.  All of this holds whatever the float arithmetic is.
-/
import proofs.«113018_j73383811219594_2_alg».proof.Proof.Gen.Kernel.Launch
import proofs.«113018_j73383811219594_2_alg».proof.Proof.Gen.Kernel.Skeleton
import proofs.«113018_j73383811219594_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- What each buffer of core `c` holds when the call is reached: the launch memory after the five host lines. -/
abbrev V (c : Dev nD) (b : Ref sig .tc) : Buf (Elt F) ((c : Thread nD τ).loc b) := StableHlo.after hostOps0 (fun b => m (c, b)) b

/-- None of the five host lines allocates a buffer. -/
theorem hostOps0_fresh : (hostOps0 : List (HloOp τ sig (Elt F))).Forall fun op => op.fresh = ∅ := by
  simp only [List.Forall]; repeat' constructor

/-- The program is those host lines followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## A window's block at a grid step -/

/-- The block of window `w` at step `t`, cut out of the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the step's block whether or not the pipeline fetched it at that step: a step
    that does not fetch has the same block index as the step before, and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's final state to the unchanged arguments -/

/-- If the run ends with the pipeline's arrays at the contents computed from the per-step data, and every other buffer as
    the call found it, then each argument array ends as launched: `x` and `h` are inputs the pipeline only reads, the
    seven weight arguments are buffers it never touches, and no host line wrote any of the nine. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses: every load and store is of a whole buffer -/

abbrev rX : Rect S4096x256 := Rect.unit (s := S4096x256) ![0, 0] S4096x256.size inb_S4096x256_S4096x256_0_0
abbrev rH : Rect S4096x128 := Rect.unit (s := S4096x128) ![0, 0] S4096x128.size inb_S4096x128_S4096x128_0_0
abbrev rW : Rect S256x384 := Rect.unit (s := S256x384) ![0, 0] S256x384.size inb_S256x384_S256x384_0_0
abbrev rU : Rect S128x384 := Rect.unit (s := S128x384) ![0, 0] S128x384.size inb_S128x384_S128x384_0_0
abbrev rY : Rect S128x256 := Rect.unit (s := S128x256) ![0, 0] S128x256.size inb_S128x256_S128x256_0_0

/-! ## What the body leaves in its two output blocks -/

/-- The next-state block after the body: its one store, of the gated blend computed from the four blocks it depends on. -/
def outH (x0 : Vec F S4096x256 .f32) (x1 : Vec F S4096x128 .f32) (x2 : Vec F S256x384 .bf16) (x3 : Vec F S128x384 .bf16) : Vec F S4096x128 .f32 :=
  View.canon [⟨rH, k0_pay1 (View.ld x0 rX) (View.ld x1 rH) (View.ld x2 rW) (View.ld x3 rU)⟩]

/-- The output block after the body: its one store, of the next-state rows times the output matrix. -/
def outY (x0 : Vec F S4096x256 .f32) (x1 : Vec F S4096x128 .f32) (x2 : Vec F S256x384 .bf16) (x3 : Vec F S128x384 .bf16) (x4 : Vec F S128x256 .bf16) : Vec F S4096x256 .f32 :=
  View.canon [⟨rX, k0_pay2 (View.ld x0 rX) (View.ld x1 rH) (View.ld x2 rW) (View.ld x3 rU) (View.ld x4 rY)⟩]

/-- A single whole-buffer store covers the buffer. -/
theorem coverH (p0 : Vec F S4096x128 .f32) (y : S4096x128.Idx) :
    ∃ pc ∈ ([⟨rH, p0⟩] : List (View.Piece (Elt F) S4096x128 .f32)), y ∈ pc.1.set :=
  View.cover_of_tiled [⟨rH, p0⟩] S4096x128.size (by rfl) y

theorem coverY (p0 : Vec F S4096x256 .f32) (y : S4096x256.Idx) :
    ∃ pc ∈ ([⟨rX, p0⟩] : List (View.Piece (Elt F) S4096x256 .f32)), y ∈ pc.1.set :=
  View.cover_of_tiled [⟨rX, p0⟩] S4096x256.size (by rfl) y

/-! ## The body, run once -/

set_option maxHeartbeats 1000000 in
/-- On whole buffers, the five inputs holding `x0 … x4` and the two outputs holding anything, the body runs without a
    fault and ends with the inputs as they were and the outputs at `outY` and `outH` of the inputs. -/
theorem sound_kernel (c : Dev nD) (E : Set ℕ) (i : grid0.Coords)
    (arg1 : Memref sig .tc .vmem S4096x256 .f32) (harg1 : arg1.IsWhole) (arg2 : Memref sig .tc .vmem S4096x128 .f32) (harg2 : arg2.IsWhole)
    (arg3 : Memref sig .tc .vmem S256x384 .bf16) (harg3 : arg3.IsWhole) (arg4 : Memref sig .tc .vmem S128x384 .bf16) (harg4 : arg4.IsWhole)
    (arg5 : Memref sig .tc .vmem S128x256 .bf16) (harg5 : arg5.IsWhole) (arg6 : Memref sig .tc .vmem S4096x256 .f32) (harg6 : arg6.IsWhole)
    (arg7 : Memref sig .tc .vmem S4096x128 .f32) (harg7 : arg7.IsWhole)
    (x0 : Vec F S4096x256 .f32) (x1 : Vec F S4096x128 .f32) (x2 : Vec F S256x384 .bf16) (x3 : Vec F S128x384 .bf16) (x4 : Vec F S128x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outY x0 x1 x2 x3 x4) ∗ owns (c : Thread nD τ) arg7 fullShare (outH x0 x1 x2 x3)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverY _)
  iexists _; isplitr
  swap; · iexact H6
  ipureintro
  exact View.read_writes_eq_canon _ _ _ (coverH _)

/-! ## The per-step data of the pipeline -/

/-- On core `c`: each array as the call finds it; after the body at step `t` each input buffer still holds its block and
    the two output buffers hold the body's stored values of the step's input blocks; nothing else is kept between steps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outY (iblk m c 0 t) (iblk m c 1 t) (iblk m c 2 t) (iblk m c 3 t) (iblk m c 4 t)
    | ⟨6, _⟩ => outH (iblk m c 0 t) (iblk m c 1 t) (iblk m c 2 t) (iblk m c 3 t)
  Φ _ := Pipeline.ΦA spec0 c
  q _ := fullShare
  owed _ := 0

/-- The data's arrays are the contents at the call's entry (by projection, never by unfolding the host lines). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outY (iblk m c 0 t) (iblk m c 1 t) (iblk m c 2 t) (iblk m c 3 t) (iblk m c 4 t) := by dsimp only [dats]
theorem after0_6 (c : Dev nD) (t : Fin cfg0.N) : (dats m 0 c).after 6 t = outH (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid step -/

/-- What the pipeline hands the body at step `t`: the invariant, the core's dues, and the seven current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it must hand back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At every step the input buffers hold the step's blocks, so the single run of the body applies; the invariant and
    the dues pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's demand on the body, at every step. -/
theorem body_obligation (c : Dev nD) : BodyObligation (dats (F := F) m 0 c) (defs₀ (F := F)) Variants.none () Set.univ := fun t => by
  rw [bigSep_W0, bigSep_W0]
  exact sound_body m c t

/-! ## The run, and the unchanged arguments -/

set_option backward.isDefEq.respectTransparency.types false in
/-- From any memory with all counters at zero every weakly fair execution ends, with each array of the pipeline at the
    contents computed from the per-step data and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without a fault and its nine arguments end as they started, whatever the float arithmetic. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.FrameKI.lean ====
/-
  The idealized kernel program runs to the end, faults nowhere, and leaves its nine argument arrays as they were;
  and after the run each of its two result arrays is assembled from what the cell's body stored at each of the 32
  grid steps.

  The program first builds, on the host, the two wide weight matrices (the three input-side matrices side by side,
  the three hidden-side ones side by side, each rounded to the narrow float format) and the rounded output matrix;
  then one pipelined call walks the batch in 32 blocks of 4096 rows.  At a step the body reads its five input
  blocks (a row block of `x`, the same rows of `h`, and the three whole weight matrices), and overwrites the whole
  of its two output blocks: the rows of the next state, and those rows times the output matrix.  It also reads the
  two output blocks before overwriting them and uses nothing of what it read, so whatever they held is irrelevant.

  What is shown: the host lines write only their own five results, so every argument array is found as launched;
  the body, run on buffers holding the input blocks and anything at all in the output blocks, ends with the inputs
  untouched and each output block equal to the body's stored value (a function of the input blocks only); the
  pipeline around it therefore ends with every array it manages at the contents computed from those per-step
  values, and every other buffer as the call found it.  All of this holds whatever the float arithmetic is.
-/
import proofs.«113018_j73383811219594_2_alg».proof.Proof.Gen.KernelIdeal.Launch
import proofs.«113018_j73383811219594_2_alg».proof.Proof.Gen.KernelIdeal.Skeleton
import proofs.«113018_j73383811219594_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- What each buffer of core `c` holds when the call is reached: the launch memory after the five host lines. -/
abbrev V (c : Dev nD) (b : Ref sig .tc) : Buf (Elt F) ((c : Thread nD τ).loc b) := StableHlo.after hostOps0 (fun b => m (c, b)) b

/-- None of the five host lines allocates a buffer. -/
theorem hostOps0_fresh : (hostOps0 : List (HloOp τ sig (Elt F))).Forall fun op => op.fresh = ∅ := by
  simp only [List.Forall]; repeat' constructor

/-- The program is those host lines followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host line before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## A window's block at a grid step -/

/-- The block of window `w` at step `t`, cut out of the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the step's block whether or not the pipeline fetched it at that step: a step
    that does not fetch has the same block index as the step before, and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's final state to the unchanged arguments -/

/-- If the run ends with the pipeline's arrays at the contents computed from the per-step data, and every other buffer as
    the call found it, then each argument array ends as launched: `x` and `h` are inputs the pipeline only reads, the
    seven weight arguments are buffers it never touches, and no host line wrote any of the nine. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses: every load and store is of a whole buffer -/

abbrev rX : Rect S4096x256 := Rect.unit (s := S4096x256) ![0, 0] S4096x256.size inb_S4096x256_S4096x256_0_0
abbrev rH : Rect S4096x128 := Rect.unit (s := S4096x128) ![0, 0] S4096x128.size inb_S4096x128_S4096x128_0_0
abbrev rW : Rect S256x384 := Rect.unit (s := S256x384) ![0, 0] S256x384.size inb_S256x384_S256x384_0_0
abbrev rU : Rect S128x384 := Rect.unit (s := S128x384) ![0, 0] S128x384.size inb_S128x384_S128x384_0_0
abbrev rY : Rect S128x256 := Rect.unit (s := S128x256) ![0, 0] S128x256.size inb_S128x256_S128x256_0_0

/-! ## What the body leaves in its two output blocks -/

/-- The next-state block after the body: its one store, of the gated blend computed from the four blocks it depends on. -/
def outH (x0 : Vec F S4096x256 .f32) (x1 : Vec F S4096x128 .f32) (x2 : Vec F S256x384 .bf16) (x3 : Vec F S128x384 .bf16) : Vec F S4096x128 .f32 :=
  View.canon [⟨rH, k0_pay1 (View.ld x0 rX) (View.ld x1 rH) (View.ld x2 rW) (View.ld x3 rU)⟩]

/-- The output block after the body: its one store, of the next-state rows times the output matrix. -/
def outY (x0 : Vec F S4096x256 .f32) (x1 : Vec F S4096x128 .f32) (x2 : Vec F S256x384 .bf16) (x3 : Vec F S128x384 .bf16) (x4 : Vec F S128x256 .bf16) : Vec F S4096x256 .f32 :=
  View.canon [⟨rX, k0_pay2 (View.ld x0 rX) (View.ld x1 rH) (View.ld x2 rW) (View.ld x3 rU) (View.ld x4 rY)⟩]

/-- A single whole-buffer store covers the buffer. -/
theorem coverH (p0 : Vec F S4096x128 .f32) (y : S4096x128.Idx) :
    ∃ pc ∈ ([⟨rH, p0⟩] : List (View.Piece (Elt F) S4096x128 .f32)), y ∈ pc.1.set :=
  View.cover_of_tiled [⟨rH, p0⟩] S4096x128.size (by rfl) y

theorem coverY (p0 : Vec F S4096x256 .f32) (y : S4096x256.Idx) :
    ∃ pc ∈ ([⟨rX, p0⟩] : List (View.Piece (Elt F) S4096x256 .f32)), y ∈ pc.1.set :=
  View.cover_of_tiled [⟨rX, p0⟩] S4096x256.size (by rfl) y

/-! ## The body, run once -/

set_option maxHeartbeats 1000000 in
/-- On whole buffers, the five inputs holding `x0 … x4` and the two outputs holding anything, the body runs without a
    fault and ends with the inputs as they were and the outputs at `outY` and `outH` of the inputs. -/
theorem sound_kernel (c : Dev nD) (E : Set ℕ) (i : grid0.Coords)
    (arg1 : Memref sig .tc .vmem S4096x256 .f32) (harg1 : arg1.IsWhole) (arg2 : Memref sig .tc .vmem S4096x128 .f32) (harg2 : arg2.IsWhole)
    (arg3 : Memref sig .tc .vmem S256x384 .bf16) (harg3 : arg3.IsWhole) (arg4 : Memref sig .tc .vmem S128x384 .bf16) (harg4 : arg4.IsWhole)
    (arg5 : Memref sig .tc .vmem S128x256 .bf16) (harg5 : arg5.IsWhole) (arg6 : Memref sig .tc .vmem S4096x256 .f32) (harg6 : arg6.IsWhole)
    (arg7 : Memref sig .tc .vmem S4096x128 .f32) (harg7 : arg7.IsWhole)
    (x0 : Vec F S4096x256 .f32) (x1 : Vec F S4096x128 .f32) (x2 : Vec F S256x384 .bf16) (x3 : Vec F S128x384 .bf16) (x4 : Vec F S128x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outY x0 x1 x2 x3 x4) ∗ owns (c : Thread nD τ) arg7 fullShare (outH x0 x1 x2 x3)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverY _)
  iexists _; isplitr
  swap; · iexact H6
  ipureintro
  exact View.read_writes_eq_canon _ _ _ (coverH _)

/-! ## The per-step data of the pipeline -/

/-- On core `c`: each array as the call finds it; after the body at step `t` each input buffer still holds its block and
    the two output buffers hold the body's stored values of the step's input blocks; nothing else is kept between steps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outY (iblk m c 0 t) (iblk m c 1 t) (iblk m c 2 t) (iblk m c 3 t) (iblk m c 4 t)
    | ⟨6, _⟩ => outH (iblk m c 0 t) (iblk m c 1 t) (iblk m c 2 t) (iblk m c 3 t)
  Φ _ := Pipeline.ΦA spec0 c
  q _ := fullShare
  owed _ := 0

/-- The data's arrays are the contents at the call's entry (by projection, never by unfolding the host lines). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outY (iblk m c 0 t) (iblk m c 1 t) (iblk m c 2 t) (iblk m c 3 t) (iblk m c 4 t) := by dsimp only [dats]
theorem after0_6 (c : Dev nD) (t : Fin cfg0.N) : (dats m 0 c).after 6 t = outH (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid step -/

/-- What the pipeline hands the body at step `t`: the invariant, the core's dues, and the seven current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it must hand back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At every step the input buffers hold the step's blocks, so the single run of the body applies; the invariant and
    the dues pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's demand on the body, at every step. -/
theorem body_obligation (c : Dev nD) : BodyObligation (dats (F := F) m 0 c) (defs₀ (F := F)) Variants.none () Set.univ := fun t => by
  rw [bigSep_W0, bigSep_W0]
  exact sound_body m c t

/-! ## The run, and the unchanged arguments -/

set_option backward.isDefEq.respectTransparency.types false in
/-- From any memory with all counters at zero every weakly fair execution ends, with each array of the pipeline at the
    contents computed from the per-step data and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without a fault and its nine arguments end as they started, whatever the float arithmetic. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.LibColumnConcat.lean ====
/-
  Three matrices of one shape laid side by side, read at an entry.

  When three `a × b` matrices are concatenated along their columns into an `a × n` matrix, the entry at row `k` and
  column `col` is: the first matrix's entry `(k, q)` when `col = q`, the second's when `col = b + q`, the third's when
  `col = b + b + q` (for `q < b`).  Each is the general fact that a concatenation at an index is the piece whose span
  along the axis contains the index's coordinate there, read at the coordinate less the widths before it.
-/
import Idealize.ShloMosaic.Lib.Pipeline.Value
import Idealize.ShloMosaic.Lib.ValueIdx

noncomputable section

namespace Cert.LibColumnConcat

open Idealize.ShloMosaic Idealize.ShloMosaic.ValueIdx

variable {α : Type} (a b n : Nat)
variable (x0 x1 x2 : (⟨2, ![a, b]⟩ : Shape).Idx → α)
variable (h : Shape.Concatenates [(⟨2, ![a, b]⟩ : Shape), ⟨2, ![a, b]⟩, ⟨2, ![a, b]⟩] ⟨2, ![a, n]⟩ (1 : Fin 2))

/-- A column inside the first piece's span reads the first piece. -/
theorem first (k : Fin a) (q : Fin b) (col : Fin n) (hc : col.val = q.val) :
    concatenate (⟨2, ![a, n]⟩ : Shape) (1 : Fin 2) [⟨(⟨2, ![a, b]⟩ : Shape), x0⟩, ⟨⟨2, ![a, b]⟩, x1⟩, ⟨⟨2, ![a, b]⟩, x2⟩] h (ix2 k col)
      = x0 (ix2 k q) :=
  concatenate_apply_piece (t := ⟨2, ![a, n]⟩) (1 : Fin 2) [⟨(⟨2, ![a, b]⟩ : Shape), x0⟩, ⟨⟨2, ![a, b]⟩, x1⟩, ⟨⟨2, ![a, b]⟩, x2⟩] h (ix2 k col) 0 (by show (0 : Nat) < 3; omega) ⟨2, ![a, b]⟩ x0 rfl rfl 0 rfl (ix2 k q)
    (fun d hd => by match d with | ⟨0, _⟩ => rfl | ⟨1, _⟩ => exact absurd rfl hd)
    (by show 0 + q.val = col.val; omega)

/-- A column inside the second piece's span reads the second piece. -/
theorem second (k : Fin a) (q : Fin b) (col : Fin n) (hc : col.val = b + q.val) :
    concatenate (⟨2, ![a, n]⟩ : Shape) (1 : Fin 2) [⟨(⟨2, ![a, b]⟩ : Shape), x0⟩, ⟨⟨2, ![a, b]⟩, x1⟩, ⟨⟨2, ![a, b]⟩, x2⟩] h (ix2 k col)
      = x1 (ix2 k q) :=
  concatenate_apply_piece (t := ⟨2, ![a, n]⟩) (1 : Fin 2) [⟨(⟨2, ![a, b]⟩ : Shape), x0⟩, ⟨⟨2, ![a, b]⟩, x1⟩, ⟨⟨2, ![a, b]⟩, x2⟩] h (ix2 k col) 1 (by show (1 : Nat) < 3; omega) ⟨2, ![a, b]⟩ x1 rfl rfl b (by simp) (ix2 k q)
    (fun d hd => by match d with | ⟨0, _⟩ => rfl | ⟨1, _⟩ => exact absurd rfl hd)
    (by show b + q.val = col.val; omega)

/-- A column inside the third piece's span reads the third piece. -/
theorem third (k : Fin a) (q : Fin b) (col : Fin n) (hc : col.val = b + b + q.val) :
    concatenate (⟨2, ![a, n]⟩ : Shape) (1 : Fin 2) [⟨(⟨2, ![a, b]⟩ : Shape), x0⟩, ⟨⟨2, ![a, b]⟩, x1⟩, ⟨⟨2, ![a, b]⟩, x2⟩] h (ix2 k col)
      = x2 (ix2 k q) :=
  concatenate_apply_piece (t := ⟨2, ![a, n]⟩) (1 : Fin 2) [⟨(⟨2, ![a, b]⟩ : Shape), x0⟩, ⟨⟨2, ![a, b]⟩, x1⟩, ⟨⟨2, ![a, b]⟩, x2⟩] h (ix2 k col) 2 (by show (2 : Nat) < 3; omega) ⟨2, ![a, b]⟩ x2 rfl rfl (b + b) (by simp) (ix2 k q)
    (fun d hd => by match d with | ⟨0, _⟩ => rfl | ⟨1, _⟩ => exact absurd rfl hd)
    (by show b + b + q.val = col.val; omega)

end Cert.LibColumnConcat

end
-- ==== Proof.GruBlockReads.lean ====
/-
  Each window's block at a grid step, entry by entry, in terms of the argument arrays.

  Step `t` of the 32 works on batch rows `4096·t … 4096·t + 4095`: the `x` window's block is those rows of `x`, the `h`
  window's those rows of `h`, and the two output windows' blocks are those rows of the two results.  The three weight
  windows have one block, the whole matrix, at every step.  The first of them is the host's side-by-side matrix of the
  three input-side weights, so its column `q`, `128 + q`, `256 + q` (for `q < 128`) is column `q` of the update gate's,
  the reset gate's and the candidate's input weights; the second is the same for the hidden-side weights; the third is
  the output weights themselves.  Rounding to the narrow format changes nothing over the extended reals.
-/
import proofs.«113018_j73383811219594_2_alg».proof.Proof.FrameKI
import proofs.«113018_j73383811219594_2_alg».proof.Proof.LibColumnConcat
import Idealize.ShloMosaic.Lib.Pipeline.Value
import Idealize.ShloMosaic.Lib.ValueIdx
import Idealize.ShloMosaic.Lib.StableHlo.Run

set_option maxRecDepth 16384

noncomputable section

namespace Cert.KernelIdeal.HandReads

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Where each window's block sits, at every step -/

/-- The row-blocked windows (`x`, `h` and the two results) are at block row `t`, block column zero; the three weight
    windows are at block zero.  Decided over the 32 steps. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A step's number is below 32. -/
theorem step_lt (t : Fin cfg0.N) : t.val < 32 := N_0 ▸ t.isLt

/-! ## The two row-blocked inputs -/

/-- Entry `(r, k)` of the `x` block at step `t` is entry `(4096·t + r, k)` of `x`. -/
theorem x_at (c : Dev nD) (t : Fin cfg0.N) (r : Fin 4096) (k : Fin 256) :
    iblk (F := Ideal) m c 0 t (ix2 r k)
      = m ((c : Thread nD τ).loc main_arg0) (ix2 (⟨4096 * t.val + r.val, by have := step_lt t; omega⟩ : Fin 131072) k) := by
  obtain ⟨e0, e1, -⟩ := idx_facts t
  refine Eq.trans ?_ (congrFun (V_main_arg0 m c) _)
  show V m c main_arg0 (((cfg0.win 0).blk t).view.emb (ix2 r k)) = V m c main_arg0 _
  refine congrArg _ ?_
  funext a; apply Fin.ext
  match a with
  | ⟨0, _⟩ => show win0_0.index t (0 : Fin 2) * 4096 + 1 * r.val = 4096 * t.val + r.val; omega
  | ⟨1, _⟩ => show win0_0.index t (1 : Fin 2) * 256 + 1 * k.val = k.val; omega

/-- Entry `(r, k)` of the `h` block at step `t` is entry `(4096·t + r, k)` of `h`. -/
theorem h_at (c : Dev nD) (t : Fin cfg0.N) (r : Fin 4096) (k : Fin 128) :
    iblk (F := Ideal) m c 1 t (ix2 r k)
      = m ((c : Thread nD τ).loc main_arg1) (ix2 (⟨4096 * t.val + r.val, by have := step_lt t; omega⟩ : Fin 131072) k) := by
  obtain ⟨-, -, e0, e1, -⟩ := idx_facts t
  refine Eq.trans ?_ (congrFun (V_main_arg1 m c) _)
  show V m c main_arg1 (((cfg0.win 1).blk t).view.emb (ix2 r k)) = V m c main_arg1 _
  refine congrArg _ ?_
  funext a; apply Fin.ext
  match a with
  | ⟨0, _⟩ => show win0_1.index t (0 : Fin 2) * 4096 + 1 * r.val = 4096 * t.val + r.val; omega
  | ⟨1, _⟩ => show win0_1.index t (1 : Fin 2) * 128 + 1 * k.val = k.val; omega

/-! ## The three weight windows: what the host lines put in their arrays -/

/-- The wide input-side matrix: the three input-side weight arguments side by side, rounded. -/
theorem wide_w (c : Dev nD) :
    (V (F := Ideal) m c main_v1 : S256x384.Idx → EReal)
      = truncf (F := Ideal) .bf16 (concatenate S256x384 1 [⟨S256x128, m ((c : Thread nD τ).loc main_arg2)⟩, ⟨S256x128, m ((c : Thread nD τ).loc main_arg4)⟩, ⟨S256x128, m ((c : Thread nD τ).loc main_arg6)⟩] Facts₀.concatenates_S256x128_S256x128_S256x128_S256x384_d1) Facts₀.bitsLt_bf16_f32 := by
  dsimp only [V, hostOps0]
  after_results
  rfl

/-- The wide hidden-side matrix: the three hidden-side weight arguments side by side, rounded. -/
theorem wide_u (c : Dev nD) :
    (V (F := Ideal) m c main_v3 : S128x384.Idx → EReal)
      = truncf (F := Ideal) .bf16 (concatenate S128x384 1 [⟨S128x128, m ((c : Thread nD τ).loc main_arg3)⟩, ⟨S128x128, m ((c : Thread nD τ).loc main_arg5)⟩, ⟨S128x128, m ((c : Thread nD τ).loc main_arg7)⟩] Facts₀.concatenates_S128x128_S128x128_S128x128_S128x384_d1) Facts₀.bitsLt_bf16_f32 := by
  dsimp only [V, hostOps0]
  after_results
  rfl

/-- The rounded output matrix. -/
theorem narrow_y (c : Dev nD) :
    (V (F := Ideal) m c main_v4 : S128x256.Idx → EReal) = truncf (F := Ideal) .bf16 (m ((c : Thread nD τ).loc main_arg8)) Facts₀.bitsLt_bf16_f32 := by
  dsimp only [V, hostOps0]
  after_results

/-- The weight windows' one block is the whole matrix. -/
theorem w_blk (c : Dev nD) (t : Fin cfg0.N) (k : Fin 256) (col : Fin 384) :
    iblk (F := Ideal) m c 2 t (ix2 k col) = V m c main_v1 (ix2 k col) := by
  obtain ⟨-, -, -, -, e0, e1, -⟩ := idx_facts t
  show V m c main_v1 (((cfg0.win 2).blk t).view.emb (ix2 k col)) = V m c main_v1 _
  refine congrArg _ ?_
  funext a; apply Fin.ext
  match a with
  | ⟨0, _⟩ => show win0_2.index t (0 : Fin 2) * 256 + 1 * k.val = k.val; omega
  | ⟨1, _⟩ => show win0_2.index t (1 : Fin 2) * 384 + 1 * col.val = col.val; omega

theorem u_blk (c : Dev nD) (t : Fin cfg0.N) (k : Fin 128) (col : Fin 384) :
    iblk (F := Ideal) m c 3 t (ix2 k col) = V m c main_v3 (ix2 k col) := by
  obtain ⟨-, -, -, -, -, -, e0, e1, -⟩ := idx_facts t
  show V m c main_v3 (((cfg0.win 3).blk t).view.emb (ix2 k col)) = V m c main_v3 _
  refine congrArg _ ?_
  funext a; apply Fin.ext
  match a with
  | ⟨0, _⟩ => show win0_3.index t (0 : Fin 2) * 128 + 1 * k.val = k.val; omega
  | ⟨1, _⟩ => show win0_3.index t (1 : Fin 2) * 384 + 1 * col.val = col.val; omega

theorem y_blk (c : Dev nD) (t : Fin cfg0.N) (k : Fin 128) (o : Fin 256) :
    iblk (F := Ideal) m c 4 t (ix2 k o) = V m c main_v4 (ix2 k o) := by
  obtain ⟨-, -, -, -, -, -, -, -, e0, e1, -⟩ := idx_facts t
  show V m c main_v4 (((cfg0.win 4).blk t).view.emb (ix2 k o)) = V m c main_v4 _
  refine congrArg _ ?_
  funext a; apply Fin.ext
  match a with
  | ⟨0, _⟩ => show win0_4.index t (0 : Fin 2) * 128 + 1 * k.val = k.val; omega
  | ⟨1, _⟩ => show win0_4.index t (1 : Fin 2) * 256 + 1 * o.val = o.val; omega

/-! ## The weight blocks' columns are the weight arguments' columns -/

/-- Column `q` of the wide input-side block is column `q` of the update gate's input weights. -/
theorem wz_at (c : Dev nD) (t : Fin cfg0.N) (k : Fin 256) (q : Fin 128) :
    iblk (F := Ideal) m c 2 t (ix2 k (⟨q.val, by omega⟩ : Fin 384)) = m ((c : Thread nD τ).loc main_arg2) (ix2 k q) :=
  (w_blk m c t k _).trans ((congrFun (wide_w m c) _).trans
    (Cert.LibColumnConcat.first 256 128 384 _ _ _ Facts₀.concatenates_S256x128_S256x128_S256x128_S256x384_d1 k q _ rfl))

/-- Column `128 + q` is column `q` of the reset gate's input weights. -/
theorem wr_at (c : Dev nD) (t : Fin cfg0.N) (k : Fin 256) (q : Fin 128) :
    iblk (F := Ideal) m c 2 t (ix2 k (⟨128 + q.val, by omega⟩ : Fin 384)) = m ((c : Thread nD τ).loc main_arg4) (ix2 k q) :=
  (w_blk m c t k _).trans ((congrFun (wide_w m c) _).trans
    (Cert.LibColumnConcat.second 256 128 384 _ _ _ Facts₀.concatenates_S256x128_S256x128_S256x128_S256x384_d1 k q _ rfl))

/-- Column `256 + q` is column `q` of the candidate's input weights. -/
theorem wc_at (c : Dev nD) (t : Fin cfg0.N) (k : Fin 256) (q : Fin 128) :
    iblk (F := Ideal) m c 2 t (ix2 k (⟨256 + q.val, by omega⟩ : Fin 384)) = m ((c : Thread nD τ).loc main_arg6) (ix2 k q) :=
  (w_blk m c t k _).trans ((congrFun (wide_w m c) _).trans
    (Cert.LibColumnConcat.third 256 128 384 _ _ _ Facts₀.concatenates_S256x128_S256x128_S256x128_S256x384_d1 k q _ rfl))

/-- The same three readings of the wide hidden-side block. -/
theorem uz_at (c : Dev nD) (t : Fin cfg0.N) (k : Fin 128) (q : Fin 128) :
    iblk (F := Ideal) m c 3 t (ix2 k (⟨q.val, by omega⟩ : Fin 384)) = m ((c : Thread nD τ).loc main_arg3) (ix2 k q) :=
  (u_blk m c t k _).trans ((congrFun (wide_u m c) _).trans
    (Cert.LibColumnConcat.first 128 128 384 _ _ _ Facts₀.concatenates_S128x128_S128x128_S128x128_S128x384_d1 k q _ rfl))

theorem ur_at (c : Dev nD) (t : Fin cfg0.N) (k : Fin 128) (q : Fin 128) :
    iblk (F := Ideal) m c 3 t (ix2 k (⟨128 + q.val, by omega⟩ : Fin 384)) = m ((c : Thread nD τ).loc main_arg5) (ix2 k q) :=
  (u_blk m c t k _).trans ((congrFun (wide_u m c) _).trans
    (Cert.LibColumnConcat.second 128 128 384 _ _ _ Facts₀.concatenates_S128x128_S128x128_S128x128_S128x384_d1 k q _ rfl))

theorem uc_at (c : Dev nD) (t : Fin cfg0.N) (k : Fin 128) (q : Fin 128) :
    iblk (F := Ideal) m c 3 t (ix2 k (⟨256 + q.val, by omega⟩ : Fin 384)) = m ((c : Thread nD τ).loc main_arg7) (ix2 k q) :=
  (u_blk m c t k _).trans ((congrFun (wide_u m c) _).trans
    (Cert.LibColumnConcat.third 128 128 384 _ _ _ Facts₀.concatenates_S128x128_S128x128_S128x128_S128x384_d1 k q _ rfl))

/-- The output-weight block is the output weights. -/
theorem wy_at (c : Dev nD) (t : Fin cfg0.N) (k : Fin 128) (o : Fin 256) :
    iblk (F := Ideal) m c 4 t (ix2 k o) = m ((c : Thread nD τ).loc main_arg8) (ix2 k o) :=
  (y_blk m c t k o).trans (congrFun (narrow_y m c) _)

/-! ## Where an output block's entry sits in its array -/

/-- Entry `(r, q)` of the next-state block at step `t` is row `4096·t + r`, column `q` of the array. -/
theorem next_emb (t : Fin cfg0.N) (r : Fin 4096) (q : Fin 128) :
    ((cfg0.win 6).blk t).view.emb (ix2 r q) = ix2 (⟨4096 * t.val + r.val, by have := step_lt t; omega⟩ : Fin 131072) q := by
  obtain ⟨-, -, -, -, -, -, -, -, -, -, -, -, e0, e1⟩ := idx_facts t
  funext a; apply Fin.ext
  match a with
  | ⟨0, _⟩ => show win0_6.index t (0 : Fin 2) * 4096 + 1 * r.val = 4096 * t.val + r.val; omega
  | ⟨1, _⟩ => show win0_6.index t (1 : Fin 2) * 128 + 1 * q.val = q.val; omega

/-- Entry `(r, o)` of the output block at step `t` is row `4096·t + r`, column `o` of the array. -/
theorem out_emb (t : Fin cfg0.N) (r : Fin 4096) (o : Fin 256) :
    ((cfg0.win 5).blk t).view.emb (ix2 r o) = ix2 (⟨4096 * t.val + r.val, by have := step_lt t; omega⟩ : Fin 131072) o := by
  obtain ⟨-, -, -, -, -, -, -, -, -, -, e0, e1, -⟩ := idx_facts t
  funext a; apply Fin.ext
  match a with
  | ⟨0, _⟩ => show win0_5.index t (0 : Fin 2) * 4096 + 1 * r.val = 4096 * t.val + r.val; omega
  | ⟨1, _⟩ => show win0_5.index t (1 : Fin 2) * 256 + 1 * o.val = o.val; omega

end Cert.KernelIdeal.HandReads

end
-- ==== Proof.GruSpec.lean ====
/-
  The gated recurrent cell both programs compute, as one function of the nine argument arrays over the extended
  reals, entry by entry.  For a batch row `p` and a hidden unit `q`, with `σ a = 1 / (1 + e^(-a))`:

      z  = σ (Σ_k x[p,k]·Wz[k,q] + Σ_k h[p,k]·Uz[k,q])                 the update gate
      r  = σ (Σ_k x[p,k]·Wr[k,q] + Σ_k h[p,k]·Ur[k,q])                 the reset gate
      c  = σ (Σ_k x[p,k]·Wc[k,q] + r · Σ_k h[p,k]·Uc[k,q])             the candidate (a logistic one, as in the source)
      h' = z · h[p,q] + (1 - z) · c                                    the next state
      y[p,o] = Σ_q h'[p,q] · Wy[q,o]                                   the output row

  The sums over `k` run over the 256 input features (for `x`) and the 128 hidden units (for `h`).  Nothing here
  needs the entries to be finite: only sums, products, one difference and the logistic function are applied, each
  the same operation in the same order on both sides, so no law of arithmetic beyond re-indexing is used.
-/
import Idealize.ShloMosaic.PureOps.Ideal
import Idealize.ShloMosaic.Lib.ValueIdx

noncomputable section

open Idealize.ShloMosaic Idealize.ShloMosaic.ValueIdx
open scoped BigOperators

namespace Cert.Gru

/-- A matrix of extended reals with `a` rows and `b` columns. -/
abbrev Mat (a b : Nat) : Type := (⟨2, ![a, b]⟩ : Shape).Idx → EReal

/-- The number one as both programs spell it: the single-precision pattern of `1.0`. -/
def one : EReal := Ideal.ofBits .f32 0x3F800000#32

/-- That pattern denotes the real number one. -/
theorem one_eq : one = 1 := by
  unfold one
  simp [Ideal.ofBits, Ideal.ieee, -EReal.coe_mul]; norm_num

/-- The logistic function written out with that constant: `1 / (1 + e^(-a))`. -/
def sigm (a : EReal) : EReal := Ideal.div one (one + Ideal.exp (-a))

/-- Written out or named, it is one function. -/
theorem sigm_eq_logistic (a : EReal) : sigm a = Ideal.logistic a := by
  unfold sigm Ideal.logistic
  rw [one_eq]

section
variable (x : Mat 131072 256) (h : Mat 131072 128)
  (wz : Mat 256 128) (uz : Mat 128 128) (wr : Mat 256 128) (ur : Mat 128 128) (wc : Mat 256 128) (uc : Mat 128 128)
  (wy : Mat 128 256)

/-- Row `p` of `x` against column `q` of a 256×128 weight matrix. -/
def xdot (w : Mat 256 128) (p : Fin 131072) (q : Fin 128) : EReal := ∑ k : Fin 256, x (ix2 p k) * w (ix2 k q)

/-- Row `p` of `h` against column `q` of a 128×128 weight matrix. -/
def hdot (u : Mat 128 128) (p : Fin 131072) (q : Fin 128) : EReal := ∑ k : Fin 128, h (ix2 p k) * u (ix2 k q)

/-- A gate: the logistic function of the two linear terms' sum. -/
def gate (w : Mat 256 128) (u : Mat 128 128) (p : Fin 131072) (q : Fin 128) : EReal :=
  Ideal.logistic (xdot x w p q + hdot h u p q)

/-- The candidate state: the hidden term scaled by the reset gate before the logistic function. -/
def cand (p : Fin 131072) (q : Fin 128) : EReal :=
  Ideal.logistic (xdot x wc p q + gate x h wr ur p q * hdot h uc p q)

/-- The next state at row `p`, unit `q`. -/
def nextAt (p : Fin 131072) (q : Fin 128) : EReal :=
  gate x h wz uz p q * h (ix2 p q) + (one - gate x h wz uz p q) * cand x h wr ur wc uc p q

/-- The output at row `p`, column `o`: the next state's row against column `o` of the output weights. -/
def outAt (p : Fin 131072) (o : Fin 256) : EReal :=
  ∑ k : Fin 128, nextAt x h wz uz wr ur wc uc p k * wy (ix2 k o)

/-- The next state as an array. -/
def next : Mat 131072 128 := fun j => nextAt x h wz uz wr ur wc uc (j 0) (j 1)

/-- The output as an array. -/
def out : Mat 131072 256 := fun j => outAt x h wz uz wr ur wc uc wy (j 0) (j 1)

theorem next_ix2 (p : Fin 131072) (q : Fin 128) :
    next x h wz uz wr ur wc uc (ix2 p q) = nextAt x h wz uz wr ur wc uc p q := rfl

theorem out_ix2 (p : Fin 131072) (o : Fin 256) :
    out x h wz uz wr ur wc uc wy (ix2 p o) = outAt x h wz uz wr ur wc uc wy p o := rfl

end

end Cert.Gru

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.GruPayload.lean ====
/-
  The two values the cell's block program stores, read at an index, over the extended reals.

  The block holds 4096 rows.  Its next-state value is built from two matrix products into the zero array — the x block
  (4096×256) against the three input weight matrices side by side (256×384), and the h block (4096×128) against the
  three hidden weight matrices side by side (128×384) — each cut into three blocks of 128 columns, at column offsets
  0, 128 and 256: the update gate's, the reset gate's and the candidate's linear terms.  Over the extended reals a
  change of number format is the identity, a reshape to the same shape is the identity, a product into the zero array
  at (r, c) is the sum over the contraction positions of the products of the entries, and a column slice at (r, q) is
  the array at (r, offset + q).  So each slice at (r, q) is a row of x (or h) against a column of one weight matrix,
  and the pointwise layer — sums, products, one difference from the constant one, the logistic function — read at
  (r, q) is the specification's next state entry by entry.  The output value is one more product into the zero
  array: the next-state block's row against the output weights' column.
-/
import proofs.«113018_j73383811219594_2_alg».proof.Proof.GruSpec
import proofs.«113018_j73383811219594_2_alg».proof.Proof.LibPlainDot
import proofs.«113018_j73383811219594_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Gru.Pay

open Cert.KernelIdeal Cert.KernelIdeal.Gen Idealize.ShloMosaic Idealize.ShloMosaic.ValueIdx Cert.Gru

/-- A product of an M×K matrix (after the narrowing format change, which is the identity on extended reals) with a
    K×N matrix (after a reshape to its own shape, also the identity), accumulated into the zero splat, read at row
    `r` and column `c`: the sum over the K positions of the products of the entries. -/
theorem prod_apply (M K N : Nat) (d : DotDims ⟨2, ![M, K]⟩ ⟨2, ![K, N]⟩ ⟨2, ![M, N]⟩) (hd : d = DotDims.plain M K N)
    (l : FVec Ideal ⟨2, ![M, K]⟩ .f32) (w : FVec Ideal ⟨2, ![K, N]⟩ .bf16)
    (hb : FTy.bits .bf16 < FTy.bits .f32) (hs : (⟨2, ![K, N]⟩ : Shape).ShapeCasts ⟨2, ![K, N]⟩)
    (r : Fin M) (c : Fin N) :
    matmul d none (truncf .bf16 l hb) (shapeCast ⟨2, ![K, N]⟩ w hs) (constant ⟨2, ![M, N]⟩ .f32 0x00000000#32) (ix2 r c)
      = ∑ k : Fin K, l (ix2 r k) * w (ix2 k c) := by
  subst hd
  rw [shapeCast_self]
  exact Cert.LibPlainDot.matmul_zero_apply M K N none (truncf .bf16 l hb) w (ix2 r c)

/-- A block of 128 columns cut out of a 4096×384 array at column offset `c`, read at row `r` and column `q`: the
    array's entry at row `r`, column `c + q`. -/
theorem slice_apply (v : S4096x384.Idx → EReal) (c : Nat) (hs : S4096x384.Slices ![0, c] S4096x128)
    (r : Fin 4096) (q : Fin 128) (c' : Fin 384) (hc : c'.val = c + q.val) :
    extractStridedSlice S4096x128 ![0, c] v hs (ix2 r q) = v (ix2 r c') := by
  refine extractStridedSlice_apply ![0, c] v hs (ix2 r q) (ix2 r c') ?_
  intro a
  match a with
  | ⟨0, _⟩ => show r.val = 0 + r.val; omega
  | ⟨1, _⟩ => show c'.val = c + q.val; exact hc

/-- The 384-column product of the x block with the concatenated input weights. -/
def xprod (v0 : Vec Ideal S4096x256 .f32) (v4 : Vec Ideal S256x384 .bf16) : FVec Ideal S4096x384 .f32 :=
  matmul (φ₁ := .bf16) (φ₂ := .bf16) dot_S4096x256_S256x384_S4096x384_1_0_0_1_n_n none (truncf .bf16 v0 bitsLt_bf16_f32)
    (shapeCast S256x384 (v4 : FVec Ideal S256x384 .bf16) shapeCasts_S256x384_S256x384) (constant S4096x384 .f32 0x00000000#32)

/-- The 384-column product of the h block with the concatenated hidden weights. -/
def hprod (v1 : Vec Ideal S4096x128 .f32) (v7 : Vec Ideal S128x384 .bf16) : FVec Ideal S4096x384 .f32 :=
  matmul (φ₁ := .bf16) (φ₂ := .bf16) dot_S4096x128_S128x384_S4096x384_1_0_0_1_n_n none (truncf .bf16 v1 bitsLt_bf16_f32)
    (shapeCast S128x384 (v7 : FVec Ideal S128x384 .bf16) shapeCasts_S128x384_S128x384) (constant S4096x384 .f32 0x00000000#32)

/-- The x product at row `r`, column `c`: the row of the block against the column of the weights. -/
theorem xprod_apply (v0 : Vec Ideal S4096x256 .f32) (v4 : Vec Ideal S256x384 .bf16) (r : Fin 4096) (c : Fin 384) :
    xprod v0 v4 (ix2 r c) = ∑ k : Fin 256, v0 (ix2 r k) * v4 (ix2 k c) :=
  prod_apply 4096 256 384 _ rfl v0 v4 _ _ r c

/-- The h product at row `r`, column `c`. -/
theorem hprod_apply (v1 : Vec Ideal S4096x128 .f32) (v7 : Vec Ideal S128x384 .bf16) (r : Fin 4096) (c : Fin 384) :
    hprod v1 v7 (ix2 r c) = ∑ k : Fin 128, v1 (ix2 r k) * v7 (ix2 k c) :=
  prod_apply 4096 128 384 _ rfl v1 v7 _ _ r c

/-- The stored next-state block at an index, with every pointwise operation read at that index: the update gate
    times the old state plus one minus the update gate times the candidate, the three gates' arguments being the
    three 128-column slices of the two products. -/
theorem pay1_pointwise (v0 : Vec Ideal S4096x256 .f32) (v1 : Vec Ideal S4096x128 .f32) (v4 : Vec Ideal S256x384 .bf16)
    (v7 : Vec Ideal S128x384 .bf16) (i : S4096x128.Idx) :
    k0_pay1 (F := Ideal) v0 v1 v4 v7 i
      = Ideal.logistic (extractStridedSlice S4096x128 ![0, 0] (xprod v0 v4) slices_S4096x384_o0_0_S4096x128 i
            + extractStridedSlice S4096x128 ![0, 0] (hprod v1 v7) slices_S4096x384_o0_0_S4096x128 i) * v1 i
        + (one - Ideal.logistic (extractStridedSlice S4096x128 ![0, 0] (xprod v0 v4) slices_S4096x384_o0_0_S4096x128 i
            + extractStridedSlice S4096x128 ![0, 0] (hprod v1 v7) slices_S4096x384_o0_0_S4096x128 i))
          * Ideal.logistic (extractStridedSlice S4096x128 ![0, 256] (xprod v0 v4) slices_S4096x384_o0_256_S4096x128 i
            + Ideal.logistic (extractStridedSlice S4096x128 ![0, 128] (xprod v0 v4) slices_S4096x384_o0_128_S4096x128 i
                + extractStridedSlice S4096x128 ![0, 128] (hprod v1 v7) slices_S4096x384_o0_128_S4096x128 i)
              * extractStridedSlice S4096x128 ![0, 256] (hprod v1 v7) slices_S4096x384_o0_256_S4096x128 i) :=
  rfl

/-- A 128-column slice of the x product, at column offset `c`, where those columns of the concatenated weights are the
    matrix `w` and the block's rows are rows of `x`: the row of `x` against the column of `w`. -/
theorem xslice_eq (x : Mat 131072 256) (w : Mat 256 128) (v0 : Vec Ideal S4096x256 .f32) (v4 : Vec Ideal S256x384 .bf16)
    (p : Fin 131072) (r : Fin 4096) (q : Fin 128) (c : Nat) (hs : S4096x384.Slices ![0, c] S4096x128)
    (c' : Fin 384) (hc : c'.val = c + q.val)
    (h0 : ∀ k : Fin 256, v0 (ix2 r k) = x (ix2 p k)) (h4 : ∀ k : Fin 256, v4 (ix2 k c') = w (ix2 k q)) :
    extractStridedSlice S4096x128 ![0, c] (xprod v0 v4) hs (ix2 r q) = xdot x w p q := by
  refine (slice_apply _ c hs r q c' hc).trans ((xprod_apply v0 v4 r c').trans ?_)
  show _ = ∑ k : Fin 256, x (ix2 p k) * w (ix2 k q)
  exact Finset.sum_congr rfl fun k _ => congrArg₂ (fun a b : EReal => a * b) (h0 k) (h4 k)

/-- The same for the h product and a hidden weight matrix `u`. -/
theorem hslice_eq (h : Mat 131072 128) (u : Mat 128 128) (v1 : Vec Ideal S4096x128 .f32) (v7 : Vec Ideal S128x384 .bf16)
    (p : Fin 131072) (r : Fin 4096) (q : Fin 128) (c : Nat) (hs : S4096x384.Slices ![0, c] S4096x128)
    (c' : Fin 384) (hc : c'.val = c + q.val)
    (h1 : ∀ k : Fin 128, v1 (ix2 r k) = h (ix2 p k)) (h7 : ∀ k : Fin 128, v7 (ix2 k c') = u (ix2 k q)) :
    extractStridedSlice S4096x128 ![0, c] (hprod v1 v7) hs (ix2 r q) = hdot h u p q := by
  refine (slice_apply _ c hs r q c' hc).trans ((hprod_apply v1 v7 r c').trans ?_)
  show _ = ∑ k : Fin 128, h (ix2 p k) * u (ix2 k q)
  exact Finset.sum_congr rfl fun k _ => congrArg₂ (fun a b : EReal => a * b) (h1 k) (h7 k)

/-- THE NEXT-STATE BLOCK AT AN INDEX.  When the loaded blocks are rows `4096·t …` of `x` and `h` and the loaded
    weights are the three input matrices and the three hidden matrices side by side, the stored value at row `r`,
    unit `q` is the cell's next state at row `4096·t + r`, unit `q`. -/
theorem pay1_block (x : Mat 131072 256) (h : Mat 131072 128) (wz : Mat 256 128) (uz : Mat 128 128) (wr : Mat 256 128)
    (ur : Mat 128 128) (wc : Mat 256 128) (uc : Mat 128 128)
    (v0 : Vec Ideal S4096x256 .f32) (v1 : Vec Ideal S4096x128 .f32) (v4 : Vec Ideal S256x384 .bf16)
    (v7 : Vec Ideal S128x384 .bf16) (t : Fin 32)
    (h0 : ∀ (r : Fin 4096) (k : Fin 256), v0 (ix2 r k) = x (ix2 (⟨4096 * t.val + r.val, by omega⟩ : Fin 131072) k))
    (h1 : ∀ (r : Fin 4096) (k : Fin 128), v1 (ix2 r k) = h (ix2 (⟨4096 * t.val + r.val, by omega⟩ : Fin 131072) k))
    (h4z : ∀ (k : Fin 256) (q : Fin 128), v4 (ix2 k (⟨q.val, by omega⟩ : Fin 384)) = wz (ix2 k q))
    (h4r : ∀ (k : Fin 256) (q : Fin 128), v4 (ix2 k (⟨128 + q.val, by omega⟩ : Fin 384)) = wr (ix2 k q))
    (h4c : ∀ (k : Fin 256) (q : Fin 128), v4 (ix2 k (⟨256 + q.val, by omega⟩ : Fin 384)) = wc (ix2 k q))
    (h7z : ∀ (k : Fin 128) (q : Fin 128), v7 (ix2 k (⟨q.val, by omega⟩ : Fin 384)) = uz (ix2 k q))
    (h7r : ∀ (k : Fin 128) (q : Fin 128), v7 (ix2 k (⟨128 + q.val, by omega⟩ : Fin 384)) = ur (ix2 k q))
    (h7c : ∀ (k : Fin 128) (q : Fin 128), v7 (ix2 k (⟨256 + q.val, by omega⟩ : Fin 384)) = uc (ix2 k q))
    (r : Fin 4096) (q : Fin 128) :
    k0_pay1 (F := Ideal) v0 v1 v4 v7 (ix2 r q)
      = nextAt x h wz uz wr ur wc uc (⟨4096 * t.val + r.val, by omega⟩ : Fin 131072) q := by
  refine (pay1_pointwise v0 v1 v4 v7 (ix2 r q)).trans ?_
  rw [xslice_eq x wz v0 v4 _ r q 0 _ _ (Nat.zero_add _).symm (h0 r) (fun k => h4z k q),
    hslice_eq h uz v1 v7 _ r q 0 _ _ (Nat.zero_add _).symm (h1 r) (fun k => h7z k q),
    xslice_eq x wr v0 v4 _ r q 128 _ _ rfl (h0 r) (fun k => h4r k q),
    hslice_eq h ur v1 v7 _ r q 128 _ _ rfl (h1 r) (fun k => h7r k q),
    xslice_eq x wc v0 v4 _ r q 256 _ _ rfl (h0 r) (fun k => h4c k q),
    hslice_eq h uc v1 v7 _ r q 256 _ _ rfl (h1 r) (fun k => h7c k q),
    h1 r q]
  rfl

/-- The stored output block at an index: the row of the next-state block against the column of the output weights. -/
theorem pay2_pointwise (v0 : Vec Ideal S4096x256 .f32) (v1 : Vec Ideal S4096x128 .f32) (v4 : Vec Ideal S256x384 .bf16)
    (v7 : Vec Ideal S128x384 .bf16) (v30 : Vec Ideal S128x256 .bf16) (r : Fin 4096) (o : Fin 256) :
    k0_pay2 (F := Ideal) v0 v1 v4 v7 v30 (ix2 r o)
      = ∑ k : Fin 128, k0_pay1 (F := Ideal) v0 v1 v4 v7 (ix2 r k) * v30 (ix2 k o) :=
  prod_apply 4096 128 256 dot_S4096x128_S128x256_S4096x256_1_0_0_1_n_n rfl (k0_pay1 (F := Ideal) v0 v1 v4 v7)
    (v30 : FVec Ideal S128x256 .bf16) bitsLt_bf16_f32 shapeCasts_S128x256_S128x256 r o

/-- THE OUTPUT BLOCK AT AN INDEX.  With the output weights loaded whole, the stored value at row `r`, column `o` is
    the cell's output at row `4096·t + r`, column `o`. -/
theorem pay2_block (x : Mat 131072 256) (h : Mat 131072 128) (wz : Mat 256 128) (uz : Mat 128 128) (wr : Mat 256 128)
    (ur : Mat 128 128) (wc : Mat 256 128) (uc : Mat 128 128)
    (v0 : Vec Ideal S4096x256 .f32) (v1 : Vec Ideal S4096x128 .f32) (v4 : Vec Ideal S256x384 .bf16)
    (v7 : Vec Ideal S128x384 .bf16) (t : Fin 32)
    (h0 : ∀ (r : Fin 4096) (k : Fin 256), v0 (ix2 r k) = x (ix2 (⟨4096 * t.val + r.val, by omega⟩ : Fin 131072) k))
    (h1 : ∀ (r : Fin 4096) (k : Fin 128), v1 (ix2 r k) = h (ix2 (⟨4096 * t.val + r.val, by omega⟩ : Fin 131072) k))
    (h4z : ∀ (k : Fin 256) (q : Fin 128), v4 (ix2 k (⟨q.val, by omega⟩ : Fin 384)) = wz (ix2 k q))
    (h4r : ∀ (k : Fin 256) (q : Fin 128), v4 (ix2 k (⟨128 + q.val, by omega⟩ : Fin 384)) = wr (ix2 k q))
    (h4c : ∀ (k : Fin 256) (q : Fin 128), v4 (ix2 k (⟨256 + q.val, by omega⟩ : Fin 384)) = wc (ix2 k q))
    (h7z : ∀ (k : Fin 128) (q : Fin 128), v7 (ix2 k (⟨q.val, by omega⟩ : Fin 384)) = uz (ix2 k q))
    (h7r : ∀ (k : Fin 128) (q : Fin 128), v7 (ix2 k (⟨128 + q.val, by omega⟩ : Fin 384)) = ur (ix2 k q))
    (h7c : ∀ (k : Fin 128) (q : Fin 128), v7 (ix2 k (⟨256 + q.val, by omega⟩ : Fin 384)) = uc (ix2 k q))
    (wy : Mat 128 256) (v30 : Vec Ideal S128x256 .bf16)
    (h30 : ∀ (k : Fin 128) (o : Fin 256), v30 (ix2 k o) = wy (ix2 k o))
    (r : Fin 4096) (o : Fin 256) :
    k0_pay2 (F := Ideal) v0 v1 v4 v7 v30 (ix2 r o)
      = outAt x h wz uz wr ur wc uc wy (⟨4096 * t.val + r.val, by omega⟩ : Fin 131072) o := by
  refine (pay2_pointwise v0 v1 v4 v7 v30 r o).trans ?_
  show _ = ∑ k : Fin 128, nextAt x h wz uz wr ur wc uc (⟨4096 * t.val + r.val, by omega⟩ : Fin 131072) k * wy (ix2 k o)
  exact Finset.sum_congr rfl fun k _ => congrArg₂ (fun a b : EReal => a * b)
    (pay1_block x h wz uz wr ur wc uc v0 v1 v4 v7 t h0 h1 h4z h4r h4c h7z h7r h7c r k) (h30 k o)

end Cert.Gru.Pay

end
-- ==== Proof.GruValue.lean ====
/-
  What the idealized kernel program's two result arrays hold after its run: the cell's output and next state, as one
  function of the nine argument arrays.

  At step `t` the body overwrites its two output blocks with values that, read entry by entry, are the cell's next state
  and output at batch rows `4096·t + r` — because the step's input blocks are those rows of `x` and `h` and the three
  weight blocks hold the weight arguments' columns.  So what step `t` writes back is block `t` of the cell's result
  arrays.  The 32 blocks of 4096 rows tile all 131072 rows (row `i` lies in block `i / 4096`), so after the last step
  each result array is the cell's array everywhere.
-/
import proofs.«113018_j73383811219594_2_alg».proof.Proof.FrameKI
import proofs.«113018_j73383811219594_2_alg».proof.Proof.GruBlockReads
import proofs.«113018_j73383811219594_2_alg».proof.Proof.GruPayload
import proofs.«113018_j73383811219594_2_alg».proof.Proof.GruSpec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.KernelIdeal.HandReads
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## What a step writes back -/

/-- Step `t` writes back, to the next-state array, block `t` of the cell's next state. -/
theorem flushed_next (c : Dev nD) (t : Fin cfg0.N) :
    (dats (F := Ideal) m 0 c).flushed 6 t
      = ((cfg0.win 6).blk t).view.read (Elt Ideal) (Cert.Gru.next (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show (cfg0.win 6).cut (grid0.coords t) ((dats m 0 c).after 6 t) = _
  rw [after0_6]
  unfold outH
  rw [View.canon_unit_zero zero_offsets]
  simp only [View.ld_unit_zero (S := S4096x256) zero_offsets, View.ld_unit_zero (S := S4096x128) zero_offsets,
    View.ld_unit_zero (S := S256x384) zero_offsets, View.ld_unit_zero (S := S128x384) zero_offsets]
  funext j
  obtain ⟨r, q, rfl⟩ : ∃ (r : Fin 4096) (q : Fin 128), j = ix2 r q := ⟨j 0, j 1, eq_ix2 j⟩
  show k0_pay1 (F := Ideal) (iblk m c 0 t) (iblk m c 1 t) (iblk m c 2 t) (iblk m c 3 t) (ix2 r q)
    = Cert.Gru.next (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 6).blk t).view.emb (ix2 r q))
  rw [next_emb t r q, Cert.Gru.next_ix2]
  exact Cert.Gru.Pay.pay1_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk m c 0 t) (iblk m c 1 t) (iblk m c 2 t) (iblk m c 3 t) ⟨t.val, step_lt t⟩
    (fun r k => x_at m c t r k) (fun r k => h_at m c t r k)
    (fun k q => wz_at m c t k q) (fun k q => wr_at m c t k q) (fun k q => wc_at m c t k q)
    (fun k q => uz_at m c t k q) (fun k q => ur_at m c t k q) (fun k q => uc_at m c t k q) r q

/-- Step `t` writes back, to the output array, block `t` of the cell's output. -/
theorem flushed_out (c : Dev nD) (t : Fin cfg0.N) :
    (dats (F := Ideal) m 0 c).flushed 5 t
      = ((cfg0.win 5).blk t).view.read (Elt Ideal) (Cert.Gru.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 5).cut (grid0.coords t) ((dats m 0 c).after 5 t) = _
  rw [after0_5]
  unfold outY
  rw [View.canon_unit_zero zero_offsets]
  simp only [View.ld_unit_zero (S := S4096x256) zero_offsets, View.ld_unit_zero (S := S4096x128) zero_offsets,
    View.ld_unit_zero (S := S256x384) zero_offsets, View.ld_unit_zero (S := S128x384) zero_offsets,
    View.ld_unit_zero (S := S128x256) zero_offsets]
  funext j
  obtain ⟨r, o, rfl⟩ : ∃ (r : Fin 4096) (o : Fin 256), j = ix2 r o := ⟨j 0, j 1, eq_ix2 j⟩
  show k0_pay2 (F := Ideal) (iblk m c 0 t) (iblk m c 1 t) (iblk m c 2 t) (iblk m c 3 t) (iblk m c 4 t) (ix2 r o)
    = Cert.Gru.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 5).blk t).view.emb (ix2 r o))
  rw [out_emb t r o, Cert.Gru.out_ix2]
  exact Cert.Gru.Pay.pay2_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk m c 0 t) (iblk m c 1 t) (iblk m c 2 t) (iblk m c 3 t) ⟨t.val, step_lt t⟩
    (fun r k => x_at m c t r k) (fun r k => h_at m c t r k)
    (fun k q => wz_at m c t k q) (fun k q => wr_at m c t k q) (fun k q => wc_at m c t k q)
    (fun k q => uz_at m c t k q) (fun k q => ur_at m c t k q) (fun k q => uc_at m c t k q)
    (m ((c : Thread nD τ).loc main_arg8)) (iblk m c 4 t) (fun k o => wy_at m c t k o) r o

/-! ## The blocks tile the arrays -/

/-- An index lies in step `t`'s block of the next-state array iff each coordinate is in the block's range. -/
theorem mem_blk_next (t : Fin cfg0.N) (i : S131072x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v5_1).slice (win0_6.rect t)).set ↔ _
  rw [View.set_slice_whole, Rect.mem_set_unit]
  exact Iff.rfl

theorem mem_blk_out (t : Fin cfg0.N) (i : S131072x256.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v5_0).slice (win0_5.rect t)).set ↔ _
  rw [View.set_slice_whole, Rect.mem_set_unit]
  exact Iff.rfl

/-- Row `i` of the next-state array lies in the block of step `i / 4096`, which is written back. -/
theorem cover_next (i : S131072x128.Idx) :
    ∃ t : Fin cfg0.N, (cfg0.win 6).flush t = true ∧ i ∈ ((cfg0.win 6).blk t).view.set := by
  have hi0 : (i 0).val < 131072 := idx2_lt0 i
  have hi1 : (i 1).val < 128 := idx2_lt1 i
  have hN : cfg0.N = 32 := N_0
  let t : Fin cfg0.N := ⟨(i 0).val / 4096, by rw [hN]; omega⟩
  have ht : t.val = (i 0).val / 4096 := rfl
  obtain ⟨-, -, -, -, -, -, -, -, -, -, -, -, e0, e1⟩ := idx_facts t
  refine ⟨t, flush0_6 t, ?_⟩
  rw [mem_blk_next]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 128 ≤ (i 1).val ∧ (i 1).val < win0_6.index t (1 : Fin 2) * 128 + 128; omega

/-- Row `i` of the output array lies in the block of step `i / 4096`, which is written back. -/
theorem cover_out (i : S131072x256.Idx) :
    ∃ t : Fin cfg0.N, (cfg0.win 5).flush t = true ∧ i ∈ ((cfg0.win 5).blk t).view.set := by
  have hi0 : (i 0).val < 131072 := idx2_lt0 i
  have hi1 : (i 1).val < 256 := idx2_lt1 i
  have hN : cfg0.N = 32 := N_0
  let t : Fin cfg0.N := ⟨(i 0).val / 4096, by rw [hN]; omega⟩
  have ht : t.val = (i 0).val / 4096 := rfl
  obtain ⟨-, -, -, -, -, -, -, -, -, -, e0, e1, -⟩ := idx_facts t
  refine ⟨t, flush0_5 t, ?_⟩
  rw [mem_blk_out]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 256 ≤ (i 1).val ∧ (i 1).val < win0_5.index t (1 : Fin 2) * 256 + 256; omega

/-! ## The result arrays after the run -/

/-- After the last step the next-state array is the cell's next state. -/
theorem final_next (c : Dev nD) :
    (dats (F := Ideal) m 0 c).arrAt 6 cfg0.N = Cert.Gru.next (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats (F := Ideal) m 0 c).arrAt_eq_of_cover 6 (Cert.Gru.next (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (fun t _ => flushed_next m c t) cover_next

/-- After the last step the output array is the cell's output. -/
theorem final_out (c : Dev nD) :
    (dats (F := Ideal) m 0 c).arrAt 5 cfg0.N = Cert.Gru.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats (F := Ideal) m 0 c).arrAt_eq_of_cover 5 (Cert.Gru.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (fun t _ => flushed_out m c t) cover_out

/-- The idealized kernel program runs to the end with its two results at the cell's output and next state of the argument
    arrays, and the arguments unchanged. -/
theorem run : θ_run defs (onTc (τ := τ) (main (F := Ideal))) ⟨m, fun _ => 0, ρ⟩ fun r => ∀ c : Dev nD,
      r.2.mem ((c.tc : Thread nD τ).loc main_v5_0) = Cert.Gru.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v5_1) = Cert.Gru.next (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 5).trans (final_out m c), ((h c).1 6).trans (final_next m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.HandValue

end
-- ==== Proof.GruRef.lean ====
/-
  The reference program is the specification.

  The reference computes the cell one array operation at a time: six matrix products, three written-out logistic
  functions `1 / (1 + e^(-a))`, the convex combination `z · h + (1 - z) · c`, and a last matrix product with the
  output weights.  Read at one entry `(p, q)`, every pointwise stage is the scalar operation on its operands' entries
  at `(p, q)`, and every matrix product is the sum over the contracted axis of row `p` of the left factor against
  column `q` of the right one.  Stage by stage these are the specification's `xdot`, `hdot`, `gate`, `cand` and
  `nextAt`; the written-out logistic function is the named one because the constant both use is the number one.
-/
import proofs.«113018_j73383811219594_2_alg».proof.Proof.GruSpec
import proofs.«113018_j73383811219594_2_alg».proof.Proof.Gen.ReferenceIdeal.Read
import Idealize.ShloMosaic.Lib.ValueIdx
import Idealize.ShloMosaic.PureOps.Ideal.Laws

noncomputable section

open scoped BigOperators

namespace Cert.Gru.Ref

open Cert.ReferenceIdeal Idealize.ShloMosaic Idealize.ShloMosaic.ValueIdx

/-! ### Matrix products read at an entry -/

/-- A sum of products whose two index families are, term by term, row `p` of the left factor and column `q` of the
    right one is the plain row-by-column sum. -/
private theorem dot_rowcol {a b c : Nat} (l : Mat a b) (r : Mat b c)
    (li : Fin b → (⟨2, ![a, b]⟩ : Shape).Idx) (ri : Fin b → (⟨2, ![b, c]⟩ : Shape).Idx) (p : Fin a) (q : Fin c)
    (hl : ∀ k, li k = ix2 p k) (hr : ∀ k, ri k = ix2 k q) :
    ∑ k : Fin b, l (li k) * r (ri k) = ∑ k : Fin b, l (ix2 p k) * r (ix2 k q) :=
  Finset.sum_congr rfl fun k _ => by rw [hl k, hr k]

/-- The input's product with the update gate's weights. -/
private theorem v0_at (x0 : (⟨S131072x256, .f32⟩ : BufTy).Contents (Elt Ideal)) (x2 : (⟨S256x128, .f32⟩ : BufTy).Contents (Elt Ideal)) (p : Fin 131072) (q : Fin 128) :
    Read.val_main_v0 (F := Ideal) x0 x2 (ix2 p q) = xdot x0 x2 p q :=
  (Read.val_main_v0_apply x0 x2 (ix2 p q)).trans
    (dot_rowcol x0 x2 (Read.lidx_main_v0 (ix2 p q)) (Read.ridx_main_v0 (ix2 p q)) p q
      (fun k => funext fun a => by match a with | ⟨0, _⟩ => rfl | ⟨1, _⟩ => rfl)
      (fun k => funext fun a => by match a with | ⟨0, _⟩ => rfl | ⟨1, _⟩ => rfl))

/-- The state's product with the update gate's recurrent weights. -/
private theorem v1_at (x1 : (⟨S131072x128, .f32⟩ : BufTy).Contents (Elt Ideal)) (x3 : (⟨S128x128, .f32⟩ : BufTy).Contents (Elt Ideal)) (p : Fin 131072) (q : Fin 128) :
    Read.val_main_v1 (F := Ideal) x1 x3 (ix2 p q) = hdot x1 x3 p q :=
  (Read.val_main_v1_apply x1 x3 (ix2 p q)).trans
    (dot_rowcol x1 x3 (Read.lidx_main_v1 (ix2 p q)) (Read.ridx_main_v1 (ix2 p q)) p q
      (fun k => funext fun a => by match a with | ⟨0, _⟩ => rfl | ⟨1, _⟩ => rfl)
      (fun k => funext fun a => by match a with | ⟨0, _⟩ => rfl | ⟨1, _⟩ => rfl))

/-- The input's product with the reset gate's weights. -/
private theorem v9_at (x0 : (⟨S131072x256, .f32⟩ : BufTy).Contents (Elt Ideal)) (x4 : (⟨S256x128, .f32⟩ : BufTy).Contents (Elt Ideal)) (p : Fin 131072) (q : Fin 128) :
    Read.val_main_v9 (F := Ideal) x0 x4 (ix2 p q) = xdot x0 x4 p q :=
  (Read.val_main_v9_apply x0 x4 (ix2 p q)).trans
    (dot_rowcol x0 x4 (Read.lidx_main_v9 (ix2 p q)) (Read.ridx_main_v9 (ix2 p q)) p q
      (fun k => funext fun a => by match a with | ⟨0, _⟩ => rfl | ⟨1, _⟩ => rfl)
      (fun k => funext fun a => by match a with | ⟨0, _⟩ => rfl | ⟨1, _⟩ => rfl))

/-- The state's product with the reset gate's recurrent weights. -/
private theorem v10_at (x1 : (⟨S131072x128, .f32⟩ : BufTy).Contents (Elt Ideal)) (x5 : (⟨S128x128, .f32⟩ : BufTy).Contents (Elt Ideal)) (p : Fin 131072) (q : Fin 128) :
    Read.val_main_v10 (F := Ideal) x1 x5 (ix2 p q) = hdot x1 x5 p q :=
  (Read.val_main_v10_apply x1 x5 (ix2 p q)).trans
    (dot_rowcol x1 x5 (Read.lidx_main_v10 (ix2 p q)) (Read.ridx_main_v10 (ix2 p q)) p q
      (fun k => funext fun a => by match a with | ⟨0, _⟩ => rfl | ⟨1, _⟩ => rfl)
      (fun k => funext fun a => by match a with | ⟨0, _⟩ => rfl | ⟨1, _⟩ => rfl))

/-- The input's product with the candidate's weights. -/
private theorem v18_at (x0 : (⟨S131072x256, .f32⟩ : BufTy).Contents (Elt Ideal)) (x6 : (⟨S256x128, .f32⟩ : BufTy).Contents (Elt Ideal)) (p : Fin 131072) (q : Fin 128) :
    Read.val_main_v18 (F := Ideal) x0 x6 (ix2 p q) = xdot x0 x6 p q :=
  (Read.val_main_v18_apply x0 x6 (ix2 p q)).trans
    (dot_rowcol x0 x6 (Read.lidx_main_v18 (ix2 p q)) (Read.ridx_main_v18 (ix2 p q)) p q
      (fun k => funext fun a => by match a with | ⟨0, _⟩ => rfl | ⟨1, _⟩ => rfl)
      (fun k => funext fun a => by match a with | ⟨0, _⟩ => rfl | ⟨1, _⟩ => rfl))

/-- The state's product with the candidate's recurrent weights. -/
private theorem v19_at (x1 : (⟨S131072x128, .f32⟩ : BufTy).Contents (Elt Ideal)) (x7 : (⟨S128x128, .f32⟩ : BufTy).Contents (Elt Ideal)) (p : Fin 131072) (q : Fin 128) :
    Read.val_main_v19 (F := Ideal) x1 x7 (ix2 p q) = hdot x1 x7 p q :=
  (Read.val_main_v19_apply x1 x7 (ix2 p q)).trans
    (dot_rowcol x1 x7 (Read.lidx_main_v19 (ix2 p q)) (Read.ridx_main_v19 (ix2 p q)) p q
      (fun k => funext fun a => by match a with | ⟨0, _⟩ => rfl | ⟨1, _⟩ => rfl)
      (fun k => funext fun a => by match a with | ⟨0, _⟩ => rfl | ⟨1, _⟩ => rfl))

/-! ### The three logistic stages -/

/-- The update gate: the written-out logistic function of the two products' sum. -/
private theorem z_at (x0 : (⟨S131072x256, .f32⟩ : BufTy).Contents (Elt Ideal)) (x1 : (⟨S131072x128, .f32⟩ : BufTy).Contents (Elt Ideal)) (x2 : (⟨S256x128, .f32⟩ : BufTy).Contents (Elt Ideal)) (x3 : (⟨S128x128, .f32⟩ : BufTy).Contents (Elt Ideal)) (p : Fin 131072) (q : Fin 128) :
    Read.val_main_v8 (F := Ideal) x0 x1 x2 x3 (ix2 p q) = gate x0 x1 x2 x3 p q := by
  rw [Read.val_main_v8_apply, Read.val_main_v7_apply, Read.val_main_cst_0_apply, Read.val_main_v6_apply,
    Read.val_main_v5_apply, Read.val_main_cst_apply, Read.val_main_v4_apply, Read.val_main_v3_apply,
    Read.val_main_v2_apply, v0_at, v1_at]
  exact sigm_eq_logistic (xdot x0 x2 p q + hdot x1 x3 p q)

/-- The reset gate, the same way with its own weights. -/
private theorem r_at (x0 : (⟨S131072x256, .f32⟩ : BufTy).Contents (Elt Ideal)) (x1 : (⟨S131072x128, .f32⟩ : BufTy).Contents (Elt Ideal)) (x4 : (⟨S256x128, .f32⟩ : BufTy).Contents (Elt Ideal)) (x5 : (⟨S128x128, .f32⟩ : BufTy).Contents (Elt Ideal)) (p : Fin 131072) (q : Fin 128) :
    Read.val_main_v17 (F := Ideal) x0 x1 x4 x5 (ix2 p q) = gate x0 x1 x4 x5 p q := by
  rw [Read.val_main_v17_apply, Read.val_main_v16_apply, Read.val_main_cst_2_apply, Read.val_main_v15_apply,
    Read.val_main_v14_apply, Read.val_main_cst_1_apply, Read.val_main_v13_apply, Read.val_main_v12_apply,
    Read.val_main_v11_apply, v9_at, v10_at]
  exact sigm_eq_logistic (xdot x0 x4 p q + hdot x1 x5 p q)

/-- The candidate: the logistic function of the input term plus the reset gate times the recurrent term. -/
private theorem c_at (x0 : (⟨S131072x256, .f32⟩ : BufTy).Contents (Elt Ideal)) (x1 : (⟨S131072x128, .f32⟩ : BufTy).Contents (Elt Ideal)) (x4 : (⟨S256x128, .f32⟩ : BufTy).Contents (Elt Ideal)) (x5 : (⟨S128x128, .f32⟩ : BufTy).Contents (Elt Ideal)) (x6 : (⟨S256x128, .f32⟩ : BufTy).Contents (Elt Ideal)) (x7 : (⟨S128x128, .f32⟩ : BufTy).Contents (Elt Ideal)) (p : Fin 131072) (q : Fin 128) :
    Read.val_main_v27 (F := Ideal) x0 x1 x4 x5 x6 x7 (ix2 p q) = cand x0 x1 x4 x5 x6 x7 p q := by
  rw [Read.val_main_v27_apply, Read.val_main_v26_apply, Read.val_main_cst_4_apply, Read.val_main_v25_apply,
    Read.val_main_v24_apply, Read.val_main_cst_3_apply, Read.val_main_v23_apply, Read.val_main_v22_apply,
    Read.val_main_v21_apply, Read.val_main_v20_apply, v18_at, r_at, v19_at]
  exact sigm_eq_logistic (xdot x0 x6 p q + gate x0 x1 x4 x5 p q * hdot x1 x7 p q)

/-! ### The next state and the output -/

/-- The reference's next state is the specification's. -/
theorem next_eq (x0 : (⟨S131072x256, .f32⟩ : BufTy).Contents (Elt Ideal)) (x1 : (⟨S131072x128, .f32⟩ : BufTy).Contents (Elt Ideal)) (x2 : (⟨S256x128, .f32⟩ : BufTy).Contents (Elt Ideal)) (x3 : (⟨S128x128, .f32⟩ : BufTy).Contents (Elt Ideal)) (x4 : (⟨S256x128, .f32⟩ : BufTy).Contents (Elt Ideal)) (x5 : (⟨S128x128, .f32⟩ : BufTy).Contents (Elt Ideal)) (x6 : (⟨S256x128, .f32⟩ : BufTy).Contents (Elt Ideal)) (x7 : (⟨S128x128, .f32⟩ : BufTy).Contents (Elt Ideal)) :
    Cert.ReferenceIdeal.Read.val_main_v32 (F := Ideal) x0 x1 x2 x3 x4 x5 x6 x7 = Cert.Gru.next x0 x1 x2 x3 x4 x5 x6 x7 := by
  funext j
  obtain ⟨p, q, rfl⟩ : ∃ (p : Fin 131072) (q : Fin 128), j = ix2 p q := ⟨j 0, j 1, eq_ix2 j⟩
  rw [next_ix2, Read.val_main_v32_apply, Read.val_main_v28_apply, Read.val_main_v31_apply, Read.val_main_v30_apply,
    Read.val_main_v29_apply, Read.val_main_cst_5_apply, z_at, c_at]
  rfl

/-- The reference's output is the specification's: the last product's left factor is the next state. -/
theorem out_eq (x0 : (⟨S131072x256, .f32⟩ : BufTy).Contents (Elt Ideal)) (x1 : (⟨S131072x128, .f32⟩ : BufTy).Contents (Elt Ideal)) (x2 : (⟨S256x128, .f32⟩ : BufTy).Contents (Elt Ideal)) (x3 : (⟨S128x128, .f32⟩ : BufTy).Contents (Elt Ideal)) (x4 : (⟨S256x128, .f32⟩ : BufTy).Contents (Elt Ideal)) (x5 : (⟨S128x128, .f32⟩ : BufTy).Contents (Elt Ideal)) (x6 : (⟨S256x128, .f32⟩ : BufTy).Contents (Elt Ideal)) (x7 : (⟨S128x128, .f32⟩ : BufTy).Contents (Elt Ideal)) (x8 : (⟨S128x256, .f32⟩ : BufTy).Contents (Elt Ideal)) :
    Cert.ReferenceIdeal.Read.val_main_v33 (F := Ideal) x0 x1 x2 x3 x4 x5 x6 x7 x8 = Cert.Gru.out x0 x1 x2 x3 x4 x5 x6 x7 x8 := by
  funext j
  obtain ⟨p, o, rfl⟩ : ∃ (p : Fin 131072) (o : Fin 256), j = ix2 p o := ⟨j 0, j 1, eq_ix2 j⟩
  rw [out_ix2, Read.val_main_v33_apply, next_eq]
  exact dot_rowcol (Cert.Gru.next x0 x1 x2 x3 x4 x5 x6 x7) x8
    (Read.lidx_main_v33 (ix2 p o)) (Read.ridx_main_v33 (ix2 p o)) p o
    (fun k => funext fun a => by match a with | ⟨0, _⟩ => rfl | ⟨1, _⟩ => rfl)
    (fun k => funext fun a => by match a with | ⟨0, _⟩ => rfl | ⟨1, _⟩ => rfl)

end Cert.Gru.Ref

end
-- ==== Proof.lean ====
/-
  A gated recurrent cell as one pipelined kernel call, against the same cell written as plain array operations.

  The kernel program concatenates the three input-side weight matrices into one 256×384 matrix and the three hidden-side
  ones into one 128×384 matrix, then walks the 131072 batch rows in 32 blocks of 4096: per block, two wide matrix
  products, three 128-column slices of each for the update gate, the reset gate and the candidate, the logistic
  function three times, the blend `z · h + (1 - z) · c`, and a last product with the output weights.  The reference
  computes the six narrow products separately, writes the logistic function out as `1 / (1 + e^(-a))`, and forms the same
  blend and the same last product over the whole batch at once.

  Over the extended reals these are one function of the nine arguments (`Cert.Gru.next`, `Cert.Gru.out`): a column of the
  wide product is a column of one of the narrow ones, a block row is a batch row, a change of number format is the
  identity, a product accumulated into zero is the plain sum of products, and the written-out logistic function is the
  named one.  No law beyond re-indexing is used, so the finiteness of the inputs is never needed.

  The three programs each run to the end without a fault and leave their arguments unchanged; nothing was rewritten
  between the kernel program and its idealization, so that conjunct is trivial; and from memories that agree on the
  arguments the idealized kernel program and the idealized reference end with equal results.
-/
import proofs.«113018_j73383811219594_2_alg».proof.Defs
import proofs.«113018_j73383811219594_2_alg».proof.Proof.Gen.Kernel
import proofs.«113018_j73383811219594_2_alg».proof.Proof.Gen.KernelIdeal
import proofs.«113018_j73383811219594_2_alg».proof.Proof.Gen.ReferenceIdeal
import proofs.«113018_j73383811219594_2_alg».proof.Proof.Gen.ReferenceIdeal.Run
import proofs.«113018_j73383811219594_2_alg».proof.Proof.Gen.ReferenceIdeal.Read
import proofs.«113018_j73383811219594_2_alg».proof.Proof.Gen.Pre_finite_inputs
import proofs.«113018_j73383811219594_2_alg».proof.Proof.FrameK
import proofs.«113018_j73383811219594_2_alg».proof.Proof.FrameKI
import proofs.«113018_j73383811219594_2_alg».proof.Proof.GruValue
import proofs.«113018_j73383811219594_2_alg».proof.Proof.GruRef
import Idealize.ShloMosaic.Adequacy
import Idealize.ShloMosaic.Init

noncomputable section

namespace Cert.Proof

open Idealize.ShloMosaic Idealize.SL.Sem

/-- The kernel program, at the level of machine words, runs and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, with the statement about its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the nine arguments, both idealized programs end with the cell's output and next state of
    those arguments: the kernel program by reading its 32 written-back blocks, the reference by reading its operations
    one at a time. -/
theorem algebraic : Cert.algebraic_KernelIdeal_ReferenceIdeal := by
  intro m ρ m' ρ' _ hagree
  refine ⟨_, _, Cert.KernelIdeal.HandValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8⟩ := hagree c
    rw [Cert.ReferenceIdeal.Read.val_main_v33_eq, Cert.Gru.Ref.out_eq, e0, e1, e2, e3, e4, e5, e6, e7, e8]
  · obtain ⟨e0, e1, e2, e3, e4, e5, e6, e7, e8⟩ := hagree c
    rw [Cert.ReferenceIdeal.Read.val_main_v32_eq, Cert.Gru.Ref.next_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
